-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S2x16000000 : Shape := ⟨2, ![2, 16000000]⟩
abbrev S500000 : Shape := ⟨1, ![500000]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S500000 : S_.BroadcastsInDim S500000 (![] : Fin 0 → Fin S500000.rank)
  reducesTo_S500000_S_d0 : S500000.ReducesTo [0] S_

variable [Facts]

def fn {F : FTy → Type} [FloatOps F] (main_arg0 : FVec F S500000x128 .f32) (main_arg1 : IVec S2x16000000 32) (main_arg2 : FVec F S500000 .f32) (main_arg3 : IVec S500000 32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000 .f32 := Host.absf main_arg2
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  main_v8
-- ==== Kernel.lean ====
abbrev S500000x128 : Shape := ⟨2, ![500000, 128]⟩
abbrev S2x16000000 : Shape := ⟨2, ![2, 16000000]⟩
abbrev S500000 : Shape := ⟨1, ![500000]⟩
abbrev S11 : Shape := ⟨1, ![11]⟩
abbrev S1x16000000 : Shape := ⟨2, ![1, 16000000]⟩
abbrev S16000000 : Shape := ⟨1, ![16000000]⟩
abbrev S_ : Shape := ⟨0, ![]⟩
abbrev S16000000x1 : Shape := ⟨2, ![16000000, 1]⟩
abbrev S500000x1 : Shape := ⟨2, ![500000, 1]⟩
abbrev S10000x128 : Shape := ⟨2, ![10000, 128]⟩
abbrev S10000x1 : Shape := ⟨2, ![10000, 1]⟩

abbrev nBuf : Space → Nat
  | .hbm => 56
  | .vmem => 10
  | .smem => 0
  | _ => 0

abbrev bufTy : (tb : Table) → Fin (tcTables nBuf tb) → BufTy
  | .hbm, ⟨0, _⟩ => ⟨S500000x128, .f32⟩
  | .hbm, ⟨1, _⟩ => ⟨S2x16000000, .i32⟩
  | .hbm, ⟨2, _⟩ => ⟨S500000, .f32⟩
  | .hbm, ⟨3, _⟩ => ⟨S500000, .i32⟩
  | .hbm, ⟨4, _⟩ => ⟨S11, .f32⟩
  | .hbm, ⟨5, _⟩ => ⟨S1x16000000, .i32⟩
  | .hbm, ⟨6, _⟩ => ⟨S16000000, .i32⟩
  | .hbm, ⟨7, _⟩ => ⟨S_, .f32⟩
  | .hbm, ⟨8, _⟩ => ⟨S500000, .f32⟩
  | .hbm, ⟨9, _⟩ => ⟨S_, .f32⟩
  | .hbm, ⟨10, _⟩ => ⟨S16000000, .f32⟩
  | .hbm, ⟨11, _⟩ => ⟨S_, .i32⟩
  | .hbm, ⟨12, _⟩ => ⟨S16000000, .i32⟩
  | .hbm, ⟨13, _⟩ => ⟨S16000000, .i1⟩
  | .hbm, ⟨14, _⟩ => ⟨S_, .i32⟩
  | .hbm, ⟨15, _⟩ => ⟨S16000000, .i32⟩
  | .hbm, ⟨16, _⟩ => ⟨S16000000, .i32⟩
  | .hbm, ⟨17, _⟩ => ⟨S16000000, .i32⟩
  | .hbm, ⟨18, _⟩ => ⟨S16000000x1, .i32⟩
  | .hbm, ⟨19, _⟩ => ⟨S500000, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S_, .i32⟩
  | .hbm, ⟨29, _⟩ => ⟨S500000, .i32⟩
  | .hbm, ⟨30, _⟩ => ⟨S500000, .i1⟩
  | .hbm, ⟨31, _⟩ => ⟨S_, .i32⟩
  | .hbm, ⟨32, _⟩ => ⟨S500000, .i32⟩
  | .hbm, ⟨33, _⟩ => ⟨S500000, .i1⟩
  | .hbm, ⟨34, _⟩ => ⟨S500000, .i1⟩
  | .hbm, ⟨35, _⟩ => ⟨S_, .i32⟩
  | .hbm, ⟨36, _⟩ => ⟨S500000, .i32⟩
  | .hbm, ⟨37, _⟩ => ⟨S500000, .i1⟩
  | .hbm, ⟨38, _⟩ => ⟨S_, .i32⟩
  | .hbm, ⟨39, _⟩ => ⟨S500000, .i32⟩
  | .hbm, ⟨40, _⟩ => ⟨S500000, .i32⟩
  | .hbm, ⟨41, _⟩ => ⟨S500000, .i32⟩
  | .hbm, ⟨42, _⟩ => ⟨S500000x1, .i32⟩
  | .hbm, ⟨43, _⟩ => ⟨S500000, .f32⟩
  | .hbm, ⟨44, _⟩ => ⟨S_, .f32⟩
  | .hbm, ⟨45, _⟩ => ⟨S_, .f32⟩
  | .hbm, ⟨46, _⟩ => ⟨S500000, .f32⟩
  | .hbm, ⟨47, _⟩ => ⟨S500000, .f32⟩
  | .hbm, ⟨48, _⟩ => ⟨S500000x1, .f32⟩
  | .hbm, ⟨49, _⟩ => ⟨S500000x1, .f32⟩
  | .hbm, ⟨50, _⟩ => ⟨S500000x128, .f32⟩
  | .hbm, ⟨51, _⟩ => ⟨S500000x1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x1, .f32⟩
  | .local _ .vmem, ⟨5, _⟩ => ⟨S10000x1, .f32⟩
  | .local _ .vmem, ⟨6, _⟩ => ⟨S10000x128, .f32⟩
  | .local _ .vmem, ⟨7, _⟩ => ⟨S10000x128, .f32⟩
  | .local _ .vmem, ⟨8, _⟩ => ⟨S10000x1, .f32⟩
  | .local _ .vmem, ⟨9, _⟩ => ⟨S10000x1, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_c_4 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v11 : Ref sig .tc := ⟨.hbm, 27, rfl⟩
abbrev main_c_5 : Ref sig .tc := ⟨.hbm, 28, rfl⟩
abbrev main_v12 : Ref sig .tc := ⟨.hbm, 29, rfl⟩
abbrev main_v13 : Ref sig .tc := ⟨.hbm, 30, rfl⟩
abbrev main_c_6 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_7 : Ref sig .tc := ⟨.hbm, 35, rfl⟩
abbrev main_v17 : Ref sig .tc := ⟨.hbm, 36, rfl⟩
abbrev main_v18 : Ref sig .tc := ⟨.hbm, 37, rfl⟩
abbrev main_c_8 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_9 : Ref sig .tc := ⟨.hbm, 44, rfl⟩
abbrev main_call1_v0 : Ref sig .tc := ⟨.hbm, 45, rfl⟩
abbrev main_call1_v1 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27_0 : Ref sig .tc := ⟨.hbm, 50, rfl⟩
abbrev main_v27_1 : Ref sig .tc := ⟨.hbm, 51, rfl⟩
abbrev main_cst_10 : Ref sig .tc := ⟨.hbm, 52, rfl⟩
abbrev main_v28 : Ref sig .tc := ⟨.hbm, 53, rfl⟩
abbrev main_cst_11 : Ref sig .tc := ⟨.hbm, 54, rfl⟩
abbrev main_v29 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x16000000_S1x16000000_0_0 : S2x16000000.Slices ![0, 0] S1x16000000
  shapeCasts_S1x16000000_S16000000 : S1x16000000.ShapeCasts S16000000
  bcast_S_S500000 : S_.BroadcastsInDim S500000 (![] : Fin 0 → Fin S500000.rank)
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S500000_S500000x1_0 : S500000.BroadcastsInDim S500000x1 (![0] : Fin 1 → Fin S500000x1.rank)
  shapeCasts_S500000_S500000x1 : S500000.ShapeCasts S500000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x128_S10000x128_0_0 : ∀ a, (![0, 0] : Fin 2 → Nat) a + S10000x128.size a ≤ S10000x128.size a
  h_S10000x128 : 0 < S10000x128.numel
  broadcasts_S10000x1_S10000x128 : S10000x1.Broadcasts S10000x128
  reducesTo_S500000x1_S_d0_1 : S500000x1.ReducesTo [0, 1] S_
  h_S_ : 0 < S_.numel
  scatter_S500000_S16000000x1_S16000000_n_0_0_1_wf : ScatterDims.WF S500000 S16000000x1 S16000000 [] [0] [0] 1
  gather_S11_S500000x1_S500000_n_0_n_n_0_1_1_wf : GatherDims.WF S11 S500000x1 S500000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S500000x1.size a
  hwx0_1 : ∀ i : grid0.Coords, EltTy.bits .f32 = 32 ∨ (Rect.block (s := S500000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S500000x1.size a
  hwx0_2 : ∀ i : grid0.Coords, EltTy.bits .f32 = 32 ∨ (Rect.block (s := S500000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S500000x128.size a
  hwx0_3 : ∀ i : grid0.Coords, EltTy.bits .f32 = 32 ∨ (Rect.block (s := S500000x128) S10000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x1.size a ≤ S500000x1.size a
  hwx0_4 : ∀ i : grid0.Coords, EltTy.bits .f32 = 32 ∨ (Rect.block (s := S500000x1) S10000x1.size (cc0_transform_4 i) (hinb0_4 i)).WholeWords (EltTy.packing .f32)

variable [Facts₀]

def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def gather_S11_S500000x1_S500000_n_0_n_n_0_1_1 : GatherDims S11 S500000x1 S500000 where
  offsetDims := []
  collapsedSliceDims := [0]
  operandBatchingDims := []
  startIndicesBatchingDims := []
  startIndexMap := [0]
  indexVectorDim := 1
  sliceSizes := ![1]
  wf := gather_S11_S500000x1_S500000_n_0_n_n_0_1_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27_0) S10000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27_1) S10000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S500000x128 : Shape := ⟨2, ![500000, 128]⟩
abbrev S2x16000000 : Shape := ⟨2, ![2, 16000000]⟩
abbrev S500000 : Shape := ⟨1, ![500000]⟩
abbrev S11 : Shape := ⟨1, ![11]⟩
abbrev S1x16000000 : Shape := ⟨2, ![1, 16000000]⟩
abbrev S16000000 : Shape := ⟨1, ![16000000]⟩
abbrev S_ : Shape := ⟨0, ![]⟩
abbrev S16000000x1 : Shape := ⟨2, ![16000000, 1]⟩
abbrev S500000x1 : Shape := ⟨2, ![500000, 1]⟩

abbrev nBuf : Space → Nat
  | .hbm => 66
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S2x16000000, .i32⟩
  | .hbm, ⟨2, _⟩ => ⟨S500000, .f32⟩
  | .hbm, ⟨3, _⟩ => ⟨S500000, .i32⟩
  | .hbm, ⟨4, _⟩ => ⟨S11, .f32⟩
  | .hbm, ⟨5, _⟩ => ⟨S1x16000000, .i32⟩
  | .hbm, ⟨6, _⟩ => ⟨S16000000, .i32⟩
  | .hbm, ⟨7, _⟩ => ⟨S_, .f32⟩
  | .hbm, ⟨8, _⟩ => ⟨S500000, .f32⟩
  | .hbm, ⟨9, _⟩ => ⟨S_, .f32⟩
  | .hbm, ⟨10, _⟩ => ⟨S16000000, .f32⟩
  | .hbm, ⟨11, _⟩ => ⟨S_, .i32⟩
  | .hbm, ⟨12, _⟩ => ⟨S16000000, .i32⟩
  | .hbm, ⟨13, _⟩ => ⟨S16000000, .i1⟩
  | .hbm, ⟨14, _⟩ => ⟨S_, .i32⟩
  | .hbm, ⟨15, _⟩ => ⟨S16000000, .i32⟩
  | .hbm, ⟨16, _⟩ => ⟨S16000000, .i32⟩
  | .hbm, ⟨17, _⟩ => ⟨S16000000, .i32⟩
  | .hbm, ⟨18, _⟩ => ⟨S16000000x1, .i32⟩
  | .hbm, ⟨19, _⟩ => ⟨S500000, .f32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S500000, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S500000, .i32⟩
  | .hbm, ⟨31, _⟩ => ⟨S500000, .i32⟩
  | .hbm, ⟨32, _⟩ => ⟨S_, .i32⟩
  | .hbm, ⟨33, _⟩ => ⟨S500000, .i32⟩
  | .hbm, ⟨34, _⟩ => ⟨S500000, .i32⟩
  | .hbm, ⟨35, _⟩ => ⟨S_, .i32⟩
  | .hbm, ⟨36, _⟩ => ⟨S500000, .i32⟩
  | .hbm, ⟨37, _⟩ => ⟨S500000, .i1⟩
  | .hbm, ⟨38, _⟩ => ⟨S_, .i32⟩
  | .hbm, ⟨39, _⟩ => ⟨S500000, .i32⟩
  | .hbm, ⟨40, _⟩ => ⟨S500000, .i32⟩
  | .hbm, ⟨41, _⟩ => ⟨S500000, .i32⟩
  | .hbm, ⟨42, _⟩ => ⟨S500000x1, .i32⟩
  | .hbm, ⟨43, _⟩ => ⟨S500000, .f32⟩
  | .hbm, ⟨44, _⟩ => ⟨S_, .f32⟩
  | .hbm, ⟨45, _⟩ => ⟨S_, .f32⟩
  | .hbm, ⟨46, _⟩ => ⟨S500000, .f32⟩
  | .hbm, ⟨47, _⟩ => ⟨S500000, .f32⟩
  | .hbm, ⟨48, _⟩ => ⟨S500000, .f32⟩
  | .hbm, ⟨49, _⟩ => ⟨S_, .f32⟩
  | .hbm, ⟨50, _⟩ => ⟨S500000, .f32⟩
  | .hbm, ⟨51, _⟩ => ⟨S500000, .f32⟩
  | .hbm, ⟨52, _⟩ => ⟨S500000, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S500000, .f32⟩
  | .hbm, ⟨59, _⟩ => ⟨S500000, .f32⟩
  | .hbm, ⟨60, _⟩ => ⟨S_, .f32⟩
  | .hbm, ⟨61, _⟩ => ⟨S500000, .f32⟩
  | .hbm, ⟨62, _⟩ => ⟨S500000, .f32⟩
  | .hbm, ⟨63, _⟩ => ⟨S500000x1, .f32⟩
  | .hbm, ⟨64, _⟩ => ⟨S500000x128, .f32⟩
  | .hbm, ⟨65, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_5 : Ref sig .tc := ⟨.hbm, 27, rfl⟩
abbrev main_c_6 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v16 : Ref sig .tc := ⟨.hbm, 34, rfl⟩
abbrev main_c_7 : Ref sig .tc := ⟨.hbm, 35, rfl⟩
abbrev main_v17 : Ref sig .tc := ⟨.hbm, 36, rfl⟩
abbrev main_v18 : Ref sig .tc := ⟨.hbm, 37, rfl⟩
abbrev main_c_8 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_9 : Ref sig .tc := ⟨.hbm, 44, rfl⟩
abbrev main_call1_v0 : Ref sig .tc := ⟨.hbm, 45, rfl⟩
abbrev main_call1_v1 : Ref sig .tc := ⟨.hbm, 46, rfl⟩
abbrev main_v24 : Ref sig .tc := ⟨.hbm, 47, rfl⟩
abbrev main_v25 : Ref sig .tc := ⟨.hbm, 48, rfl⟩
abbrev main_cst_10 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_11 : Ref sig .tc := ⟨.hbm, 53, rfl⟩
abbrev main_v29 : Ref sig .tc := ⟨.hbm, 54, rfl⟩
abbrev main_cst_12 : Ref sig .tc := ⟨.hbm, 55, rfl⟩
abbrev main_v30 : Ref sig .tc := ⟨.hbm, 56, rfl⟩
abbrev main_cst_13 : Ref sig .tc := ⟨.hbm, 57, rfl⟩
abbrev main_v31 : Ref sig .tc := ⟨.hbm, 58, rfl⟩
abbrev main_v32 : Ref sig .tc := ⟨.hbm, 59, rfl⟩
abbrev main_cst_14 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  bcast_S_S500000 : S_.BroadcastsInDim S500000 (![] : Fin 0 → Fin S500000.rank)
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S500000_S500000x1_0 : S500000.BroadcastsInDim S500000x1 (![0] : Fin 1 → Fin S500000x1.rank)
  reducesTo_S500000_S_d0 : S500000.ReducesTo [0] S_
  h_S_ : 0 < S_.numel
  bcast_S500000x1_S500000x128_0_1 : S500000x1.BroadcastsInDim S500000x128 (![0, 1] : Fin 2 → Fin S500000x128.rank)
  scatter_S500000_S16000000x1_S16000000_n_0_0_1_wf : ScatterDims.WF S500000 S16000000x1 S16000000 [] [0] [0] 1
  gather_S11_S500000x1_S500000_n_0_n_n_0_1_1_wf : GatherDims.WF S11 S500000x1 S500000 [] [0] [] [0] [] 1 ![1]

variable [Facts₀]

def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def gather_S11_S500000x1_S500000_n_0_n_n_0_1_1 : GatherDims S11 S500000x1 S500000 where
  offsetDims := []
  collapsedSliceDims := [0]
  operandBatchingDims := []
  startIndicesBatchingDims := []
  startIndexMap := [0]
  indexVectorDim := 1
  sliceSizes := ![1]
  wf := gather_S11_S500000x1_S500000_n_0_n_n_0_1_1_wf

class Facts : Prop extends Facts₀ where

variable [Facts]
-- ==== Proof.Spec.lean ====
/-
  The valence penalty, stated once.

  Every atom `n` has a bond count `bc n` — the number of edges whose source is `n`, a sum of ones scattered over
  the atoms — and an allowed valence `mv n`, looked up in a table of eleven entries by the atom's type (the default
  `4` outside the table). Its excess is `max (bc n − mv n) 0`. The atom's feature row is damped by
  `1 − 0.1 · excess`, and the penalty is the sum over the atoms of the squared excess, divided by the number of atoms.

  The bond counts and the allowed valences are computed on the host by both programs, by the same operations: they are
  stated here once, for any float values, as functions of the edge list and of the atom types (`bondCounts`, `allowed`),
  and nothing below ever looks inside the scatter or the table lookup. The two results are stated over the extended
  reals, index by index (`damped`, `penalty`).
-/
import Idealize.ShloMosaic.PureOps
import Idealize.ShloMosaic.PureOps.Ideal
import Idealize.ShloMosaic.Lib.ValueIdx

noncomputable section

namespace Cert.Valence

open Idealize.ShloMosaic Idealize.ShloMosaic.ValueIdx

/-! ## Shapes -/

abbrev SEdges : Shape := ⟨2, ![2, 16000000]⟩
abbrev SRow2 : Shape := ⟨2, ![1, 16000000]⟩
abbrev SRow : Shape := ⟨1, ![16000000]⟩
abbrev SRowCol : Shape := ⟨2, ![16000000, 1]⟩
abbrev SAtoms : Shape := ⟨1, ![500000]⟩
abbrev SAtomsCol : Shape := ⟨2, ![500000, 1]⟩
abbrev SFeat : Shape := ⟨2, ![500000, 128]⟩
abbrev STab : Shape := ⟨1, ![11]⟩
abbrev S0 : Shape := ⟨0, ![]⟩

/-! ## The host prelude: bond counts and allowed valences -/

/-- The shape relations the host prelude's operations need (each program states them among its own facts). -/
structure HostFacts : Prop where
  slices : SEdges.Slices ![0, 0] SRow2
  casts : SRow2.ShapeCasts SRow
  b_atoms : S0.BroadcastsInDim SAtoms (![] : Fin 0 → Fin SAtoms.rank)
  b_row : S0.BroadcastsInDim SRow (![] : Fin 0 → Fin SRow.rank)
  b_rowcol : SRow.BroadcastsInDim SRowCol (![0] : Fin 1 → Fin SRowCol.rank)
  b_atomscol : SAtoms.BroadcastsInDim SAtomsCol (![0] : Fin 1 → Fin SAtomsCol.rank)
  scatter_wf : ScatterDims.WF SAtoms SRowCol SRow [] [0] [0] 1
  gather_wf : GatherDims.WF STab SAtomsCol SAtoms [] [0] [] [0] [] 1 ![1]

variable {F : FTy → Type} [FloatOps F]

/-- The scatter of one update per edge into the atoms: the update lands at the edge's source. -/
def scatterDims (hf : HostFacts) : ScatterDims SAtoms SRowCol SRow where
  updateWindowDims := []
  insertedWindowDims := [0]
  scatterDimsToOperandDims := [0]
  indexVectorDim := 1
  wf := hf.scatter_wf

/-- The lookup of one table entry per atom. -/
def gatherDims (hf : HostFacts) : GatherDims STab SAtomsCol SAtoms where
  offsetDims := []
  collapsedSliceDims := [0]
  operandBatchingDims := []
  startIndicesBatchingDims := []
  startIndexMap := [0]
  indexVectorDim := 1
  sliceSizes := ![1]
  wf := hf.gather_wf

/-- The edges' sources: row `0` of the edge list. -/
def sources (hf : HostFacts) (e : (⟨SEdges, .i32⟩ : BufTy).Contents (Elt F)) : (⟨SRow, .i32⟩ : BufTy).Contents (Elt F) :=
  shapeCast SRow (extractStridedSlice SRow2 ![0, 0] e hf.slices) hf.casts

/-- The bond counts: from zero, one added at each edge's source (a negative source counted from the end). -/
def bondCounts (hf : HostFacts) (e : (⟨SEdges, .i32⟩ : BufTy).Contents (Elt F)) : (⟨SAtoms, .f32⟩ : BufTy).Contents (Elt F) :=
  Host.scatterAdd (scatterDims hf)
    (broadcastInDim SAtoms ![] hf.b_atoms (constant S0 .f32 0x00000000#32))
    (broadcastInDim SRowCol ![0] hf.b_rowcol
      (select (cmpi .slt (sources hf e) (broadcastInDim SRow ![] hf.b_row (constantI S0 32 0#32)))
        (addi (sources hf e) (broadcastInDim SRow ![] hf.b_row (constantI S0 32 500000#32)))
        (sources hf e)))
    (broadcastInDim SRow ![] hf.b_row (constant S0 .f32 0x3F800000#32))

/-- An atom type clipped into the table's range `0 … 10`. -/
def clipped (hf : HostFacts) (a : (⟨SAtoms, .i32⟩ : BufTy).Contents (Elt F)) : (⟨SAtoms, .i32⟩ : BufTy).Contents (Elt F) :=
  minsi (broadcastInDim SAtoms ![] hf.b_atoms (constantI S0 32 10#32))
    (maxsi (broadcastInDim SAtoms ![] hf.b_atoms (constantI S0 32 0#32)) a)

/-- The allowed valences: the table's entry at the clipped type where the type is in the table, `4` elsewhere. -/
def allowed (hf : HostFacts) (tbl : Fin 11 → BitVec 32) (a : (⟨SAtoms, .i32⟩ : BufTy).Contents (Elt F)) :
    (⟨SAtoms, .f32⟩ : BufTy).Contents (Elt F) :=
  select
    (andi (cmpi .sge a (broadcastInDim SAtoms ![] hf.b_atoms (constantI S0 32 0#32)))
      (cmpi .slt a (broadcastInDim SAtoms ![] hf.b_atoms (constantI S0 32 11#32))))
    (Host.gather (gatherDims hf) (fun i => FloatOps.ofBits .f32 (tbl (STab.rowMajor i)))
      (broadcastInDim SAtomsCol ![0] hf.b_atomscol
        (select (cmpi .slt (clipped hf a) (broadcastInDim SAtoms ![] hf.b_atoms (constantI S0 32 0#32)))
          (addi (clipped hf a) (broadcastInDim SAtoms ![] hf.b_atoms (constantI S0 32 11#32)))
          (clipped hf a))))
    (broadcastInDim SAtoms ![] hf.b_atoms (constant S0 .f32 0x40800000#32))

/-! ## The two results over the extended reals -/

/-- The excess of a bond count `b` over an allowed valence `v`: `max (b − v) 0`. -/
def excess (b v : EReal) : EReal := max (b - v) (Ideal.ofBits .f32 0x00000000#32)

/-- The features, each atom's row multiplied by `1 − 0.1 · excess`. -/
def damped (h : SFeat.Idx → EReal) (bc mv : SAtoms.Idx → EReal) : SFeat.Idx → EReal := fun i =>
  h i * (Ideal.ofBits .f32 0x3F800000#32
    - Ideal.ofBits .f32 0x3DCCCCCD#32 * excess (bc (ix1 (n := 500000) (i 0))) (mv (ix1 (n := 500000) (i 0))))

/-- The squared excess of atom `r`. -/
def sqExcess (bc mv : SAtoms.Idx → EReal) (r : Fin 500000) : EReal :=
  excess (bc (ix1 r)) (mv (ix1 r)) * excess (bc (ix1 r)) (mv (ix1 r))

/-- The penalty: the squared excesses summed from zero over the atoms, divided by the number of atoms. -/
def penalty (bc mv : SAtoms.Idx → EReal) : S0.Idx → EReal := fun _ =>
  Ideal.div (Ideal.ofBits .f32 0x00000000#32 + ∑ r : Fin 500000, sqExcess bc mv r) (Ideal.ofBits .f32 0x48F42400#32)

end Cert.Valence

end
-- ==== Proof.KHost.lean ====
/-
  What the kernel's region finds in its two column operands.

  Before the region the kernel's program computes, on the host, the bond counts and the allowed valences — the very
  operations the reference applies (`Cert.Valence.bondCounts`, `Cert.Valence.allowed`) — and views each `[500000]`
  vector as a `[500000, 1]` column. So window 1's array is the column of bond counts and window 2's the column of
  allowed valences, each a function of the launch contents of the edge list and of the atom types.
-/
import proofs.«143744_j33887291965648_1_alg».proof.Proof.Gen.KernelIdeal.Frame
import proofs.«143744_j33887291965648_1_alg».proof.Proof.Spec
import Idealize.ShloMosaic.Lib.StableHlo.Run

noncomputable section

namespace Cert.Valence.Kernel

open Cert.KernelIdeal Cert.KernelIdeal.Gen Idealize.ShloMosaic Idealize.ShloMosaic.TcCoe Idealize.SL.Sem Idealize.ShloMosaic.StableHlo
open Cert.Valence

variable {F : FTy → Type} [FloatOps F]
variable (m : (ℓ : Loc nD τ sig) → Buf (Elt F) ℓ)

/-- The shape relations of the host prelude, as the kernel's program states them. -/
theorem hostFacts : HostFacts :=
  ⟨slices_S2x16000000_S1x16000000_0_0, shapeCasts_S1x16000000_S16000000, bcast_S_S500000, bcast_S_S16000000,
    bcast_S16000000_S16000000x1_0, bcast_S500000_S500000x1_0, scatter_S500000_S16000000x1_S16000000_n_0_0_1_wf,
    gather_S11_S500000x1_S500000_n_0_n_n_0_1_1_wf⟩

-- the scatter and the lookup stay folded: the two sides apply them to the same operands, and nothing reads inside them
attribute [local irreducible] Host.scatterAdd Host.gather in
/-- Window 1's array at the region's entry: the bond counts as a column. -/
theorem V_counts (c : Dev nD) :
    V m c main_v25 = shapeCast S500000x1 (bondCounts hostFacts (m ((c : Thread nD τ).loc main_arg1))) shapeCasts_S500000_S500000x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

attribute [local irreducible] Host.scatterAdd Host.gather in
/-- Window 2's array at the region's entry: the allowed valences as a column. -/
theorem V_allowed (c : Dev nD) :
    V m c main_v26 = shapeCast S500000x1 (allowed hostFacts lit0 (m ((c : Thread nD τ).loc main_arg3))) shapeCasts_S500000_S500000x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

end Cert.Valence.Kernel

end
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KBlocks.lean ====
/-
  The kernel's two output arrays after the region, over the extended reals.

  The grid has 50 points; point `t` works on rows `10000·t … 10000·t + 9999` of every operand. From the block of
  features and the blocks of the two columns (bond counts, allowed valences) the body stores, row by row, the features
  times `1 − 0.1 · excess` into the first output's block and the squared excess into the second's. Each column entry
  of block `t` is the vector's entry at the same row, so what point `t` writes back is block `t` of one whole-array
  function (`features`, `squares`); the 50 blocks tile the 500000 rows, so after the region each output array is that
  function.
-/
import proofs.«143744_j33887291965648_1_alg».proof.Proof.KHost
import proofs.«143744_j33887291965648_1_alg».proof.Proof.LibKeepdims
import Idealize.ShloMosaic.Lib.Pipeline.Value
import Idealize.ShloMosaic.PureOps.Ideal.Laws

noncomputable section

namespace Cert.Valence.Kernel

open Cert.KernelIdeal Cert.KernelIdeal.Gen Idealize.ShloMosaic Idealize.ShloMosaic.TcCoe Idealize.SL.Sem
open Idealize.ShloMosaic.Pipeline (Dat)
open Idealize.ShloMosaic.ValueIdx Cert.Valence

theorem hz : (![0, 0] : Fin 2 → Nat) = fun _ => 0 := funext fun a => by fin_cases a <;> rfl

/-! ## The body's arithmetic, entry by entry -/

/-- The clipped difference of the two columns is the excess. -/
theorem pay_excess (x1 x2 : Vec Ideal S10000x1 .f32) (j : S10000x1.Idx) : k0_pay1 x1 x2 j = excess (x1 j) (x2 j) := by
  unfold k0_pay1
  simp only [shapeCast_self]
  rfl

/-- The second output's payload is the squared excess. -/
theorem pay_square (x1 x2 : Vec Ideal S10000x1 .f32) (j : S10000x1.Idx) :
    k0_pay3 x1 x2 j = excess (x1 j) (x2 j) * excess (x1 j) (x2 j) := by
  unfold k0_pay3
  show k0_pay1 x1 x2 j * k0_pay1 x1 x2 j = _
  rw [pay_excess]

/-- The first output's payload at `(p, q)`: the feature times `1 − 0.1 · excess` of row `p`. -/
theorem pay_damped (x1 x2 : Vec Ideal S10000x1 .f32) (x0 : Vec Ideal S10000x128 .f32) (p : Fin 10000) (q : Fin 128) :
    k0_pay2 x1 x2 x0 (ix2 p q) = x0 (ix2 p q) * (Ideal.ofBits .f32 0x3F800000#32
      - Ideal.ofBits .f32 0x3DCCCCCD#32 * excess (x1 (ix2 p (0 : Fin 1))) (x2 (ix2 p (0 : Fin 1)))) := by
  unfold k0_pay2
  rw [mulf_apply, Cert.LibKeepdims.broadcastTo_a1_ab_apply, subf_apply, mulf_apply, pay_excess]
  rfl

/-- One entry of the first output's block, given where the three loaded entries sit in the arrays. -/
theorem point_features (x0 : Vec Ideal S10000x128 .f32) (x1 x2 : Vec Ideal S10000x1 .f32) (h : SFeat.Idx → EReal)
    (bc mv : SAtoms.Idx → EReal) (j : S10000x128.Idx) (i : SFeat.Idx) (h0 : x0 j = h i)
    (h1 : x1 (ix2 (n0 := 10000) (n1 := 1) (j 0) 0) = bc (ix1 (n := 500000) (i 0)))
    (h2 : x2 (ix2 (n0 := 10000) (n1 := 1) (j 0) 0) = mv (ix1 (n := 500000) (i 0))) :
    k0_pay2 x1 x2 x0 j = damped h bc mv i := by
  obtain ⟨p, q, rfl⟩ : ∃ (p : Fin 10000) (q : Fin 128), j = ix2 p q := ⟨j 0, j 1, eq_ix2 j⟩
  have h1' : x1 (ix2 p (0 : Fin 1)) = bc (ix1 (n := 500000) (i 0)) := h1
  have h2' : x2 (ix2 p (0 : Fin 1)) = mv (ix1 (n := 500000) (i 0)) := h2
  rw [pay_damped, h0, h1', h2']
  rfl

/-- One entry of the second output's block, given the atom the two loaded entries belong to. -/
theorem point_square (x1 x2 : Vec Ideal S10000x1 .f32) (bc mv : SAtoms.Idx → EReal) (j : S10000x1.Idx) (r : Fin 500000)
    (h1 : x1 j = bc (ix1 r)) (h2 : x2 j = mv (ix1 r)) : k0_pay3 x1 x2 j = sqExcess bc mv r := by
  rw [pay_square, h1, h2]
  rfl

/-! ## The whole-array functions -/

variable (m : (ℓ : Loc nD τ sig) → Buf (Elt Ideal) ℓ)

/-- The bond counts and the allowed valences of the launch contents. -/
abbrev counts (c : Dev nD) : SAtoms.Idx → EReal := bondCounts hostFacts (m ((c : Thread nD τ).loc main_arg1))
abbrev valences (c : Dev nD) : SAtoms.Idx → EReal := allowed hostFacts lit0 (m ((c : Thread nD τ).loc main_arg3))

/-- The first output: the damped features. -/
abbrev features (c : Dev nD) : Buf (Elt Ideal) ((c : Thread nD τ).loc main_v27_0) :=
  damped (m ((c : Thread nD τ).loc main_arg0)) (counts m c) (valences m c)

/-- The second output: the column of squared excesses. -/
abbrev squares (c : Dev nD) : Buf (Elt Ideal) ((c : Thread nD τ).loc main_v27_1) :=
  fun i => sqExcess (counts m c) (valences m c) (i 0 : Fin 500000)

/-! ## What a point writes back -/

/-- Every window's block index at point `t` is `(t, 0)`: decided over the 50 points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The three input windows' arrays as the region finds them: the features as launched, the column of bond counts, the
    column of allowed valences. -/
theorem A_features (c : Dev nD) : V m c (Pipeline.arrRef spec0 0) = m ((c : Thread nD τ).loc main_arg0) := V_main_arg0 m c
theorem A_counts (c : Dev nD) :
    V m c (Pipeline.arrRef spec0 1) = shapeCast S500000x1 (counts m c) shapeCasts_S500000_S500000x1 := V_counts m c
theorem A_allowed (c : Dev nD) :
    V m c (Pipeline.arrRef spec0 2) = shapeCast S500000x1 (valences m c) shapeCasts_S500000_S500000x1 := V_allowed m c

/-- Point `t` writes back block `t` of the damped features. -/
theorem flushed_features (c : Dev nD) (t : Fin cfg0.N) :
    (dats m 0 c).flushed 3 t = ((cfg0.win 3).blk t).view.read (Elt Ideal) (features m c) := by
  show (cfg0.win 3).cut (grid0.coords t) ((dats m 0 c).after 3 t) = _
  rw [after0_3]
  unfold out0_3
  rw [View.canon_unit_zero hz]
  simp only [View.ld_unit_zero (S := S10000x1) hz, View.ld_unit_zero (S := S10000x128) hz]
  obtain ⟨e00, e01, e10, e11, e20, e21, e30, e31, e40, e41⟩ := idx_facts t
  funext j
  -- the array read through the block is the array at the block's embedded index
  rw [View.read_apply, cast_eq]
  show k0_pay2 (iblk m c 1 t) (iblk m c 2 t) (iblk m c 0 t) j = features m c (((cfg0.win 3).blk t).view.emb j)
  refine point_features (iblk m c 0 t) (iblk m c 1 t) (iblk m c 2 t) (m ((c : Thread nD τ).loc main_arg0)) (counts m c)
    (valences m c) j (((cfg0.win 3).blk t).view.emb j) ?_ ?_ ?_
  · have h0 : ((cfg0.win 0).blk t).view.emb j = ((cfg0.win 3).blk t).view.emb j := by
      funext a; apply Fin.ext
      match a with
      | ⟨0, _⟩ => show win0_0.index t (0 : Fin 2) * 10000 + 1 * (j 0).val = win0_3.index t (0 : Fin 2) * 10000 + 1 * (j 0).val; omega
      | ⟨1, _⟩ => show win0_0.index t (1 : Fin 2) * 128 + 1 * (j 1).val = win0_3.index t (1 : Fin 2) * 128 + 1 * (j 1).val; omega
    unfold iblk
    rw [View.read_apply, cast_eq, A_features]
    exact congrArg (m ((c : Thread nD τ).loc main_arg0)) h0
  · unfold iblk
    rw [View.read_apply, cast_eq, A_counts]
    refine shapeCast_apply _ _ _ _ ?_
    rw [Shape.rowMajor_val_one, Shape.rowMajor_val_two]
    show win0_3.index t (0 : Fin 2) * 10000 + 1 * (j 0).val
      = (win0_1.index t (0 : Fin 2) * 10000 + 1 * (j 0).val) * 1 + (win0_1.index t (1 : Fin 2) * 1 + 1 * 0)
    omega
  · unfold iblk
    rw [View.read_apply, cast_eq, A_allowed]
    refine shapeCast_apply _ _ _ _ ?_
    rw [Shape.rowMajor_val_one, Shape.rowMajor_val_two]
    show win0_3.index t (0 : Fin 2) * 10000 + 1 * (j 0).val
      = (win0_2.index t (0 : Fin 2) * 10000 + 1 * (j 0).val) * 1 + (win0_2.index t (1 : Fin 2) * 1 + 1 * 0)
    omega

/-- Point `t` writes back block `t` of the column of squared excesses. -/
theorem flushed_squares (c : Dev nD) (t : Fin cfg0.N) :
    (dats m 0 c).flushed 4 t = ((cfg0.win 4).blk t).view.read (Elt Ideal) (squares m c) := by
  show (cfg0.win 4).cut (grid0.coords t) ((dats m 0 c).after 4 t) = _
  rw [after0_4]
  unfold out0_4
  rw [View.canon_unit_zero hz]
  simp only [View.ld_unit_zero (S := S10000x1) hz]
  obtain ⟨e00, e01, e10, e11, e20, e21, e30, e31, e40, e41⟩ := idx_facts t
  funext j
  rw [View.read_apply, cast_eq]
  show k0_pay3 (iblk m c 1 t) (iblk m c 2 t) j = squares m c (((cfg0.win 4).blk t).view.emb j)
  have hj1 : (j 1).val < 1 := (j 1).isLt
  refine point_square (iblk m c 1 t) (iblk m c 2 t) (counts m c) (valences m c) j ((((cfg0.win 4).blk t).view.emb j) 0) ?_ ?_
  · unfold iblk
    rw [View.read_apply, cast_eq, A_counts]
    refine shapeCast_apply _ _ _ _ ?_
    rw [Shape.rowMajor_val_one, Shape.rowMajor_val_two]
    show win0_4.index t (0 : Fin 2) * 10000 + 1 * (j 0).val
      = (win0_1.index t (0 : Fin 2) * 10000 + 1 * (j 0).val) * 1 + (win0_1.index t (1 : Fin 2) * 1 + 1 * (j 1).val)
    omega
  · unfold iblk
    rw [View.read_apply, cast_eq, A_allowed]
    refine shapeCast_apply _ _ _ _ ?_
    rw [Shape.rowMajor_val_one, Shape.rowMajor_val_two]
    show win0_4.index t (0 : Fin 2) * 10000 + 1 * (j 0).val
      = (win0_2.index t (0 : Fin 2) * 10000 + 1 * (j 0).val) * 1 + (win0_2.index t (1 : Fin 2) * 1 + 1 * (j 1).val)
    omega

/-! ## The blocks tile the arrays -/

/-- An index is in point `t`'s block of the first output iff each coordinate is in the block's range. -/
theorem mem_blk_features (t : Fin cfg0.N) (i : S500000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v27_0).slice (win0_3.rect t)).set ↔ _
  rw [View.set_slice_whole, Rect.mem_set_unit]
  exact Iff.rfl

/-- An index is in point `t`'s block of the second output iff each coordinate is in the block's range. -/
theorem mem_blk_squares (t : Fin cfg0.N) (i : S500000x1.Idx) :
    i ∈ ((cfg0.win 4).blk t).view.set ↔ ∀ a : Fin 2, win0_4.index t a * S10000x1.size a ≤ (i a).val
      ∧ (i a).val < win0_4.index t a * S10000x1.size a + S10000x1.size a := by
  show i ∈ ((View.whole main_v27_1).slice (win0_4.rect t)).set ↔ _
  rw [View.set_slice_whole, Rect.mem_set_unit]
  exact Iff.rfl

/-- Row `r` is in the block of point `r / 10000`. -/
theorem cover_features (i : S500000x128.Idx) :
    ∃ t : Fin cfg0.N, (cfg0.win 3).flush t = true ∧ i ∈ ((cfg0.win 3).blk t).view.set := by
  have hi0 : (i 0).val < 500000 := (i 0).isLt
  have hi1 : (i 1).val < 128 := (i 1).isLt
  have hN : cfg0.N = 50 := N_0
  obtain ⟨t, ht⟩ : ∃ t : Fin cfg0.N, t.val = (i 0).val / 10000 := ⟨⟨(i 0).val / 10000, by rw [hN]; omega⟩, rfl⟩
  obtain ⟨e00, e01, e10, e11, e20, e21, e30, e31, e40, e41⟩ := idx_facts t
  refine ⟨t, flush0_3 t, ?_⟩
  rw [mem_blk_features]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

theorem cover_squares (i : S500000x1.Idx) :
    ∃ t : Fin cfg0.N, (cfg0.win 4).flush t = true ∧ i ∈ ((cfg0.win 4).blk t).view.set := by
  have hi0 : (i 0).val < 500000 := (i 0).isLt
  have hi1 : (i 1).val < 1 := (i 1).isLt
  have hN : cfg0.N = 50 := N_0
  obtain ⟨t, ht⟩ : ∃ t : Fin cfg0.N, t.val = (i 0).val / 10000 := ⟨⟨(i 0).val / 10000, by rw [hN]; omega⟩, rfl⟩
  obtain ⟨e00, e01, e10, e11, e20, e21, e30, e31, e40, e41⟩ := idx_facts t
  refine ⟨t, flush0_4 t, ?_⟩
  rw [mem_blk_squares]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 1 ≤ (i 1).val ∧ (i 1).val < win0_4.index t (1 : Fin 2) * 1 + 1; omega

/-! ## The arrays after the region -/

theorem final_features (c : Dev nD) : (dats m 0 c).arrAt 3 cfg0.N = features m c :=
  (dats m 0 c).arrAt_eq_of_cover 3 (features m c) (fun t _ => flushed_features m c t) cover_features

theorem final_squares (c : Dev nD) : (dats m 0 c).arrAt 4 cfg0.N = squares m c :=
  (dats m 0 c).arrAt_eq_of_cover 4 (squares m c) (fun t _ => flushed_squares m c t) cover_squares

end Cert.Valence.Kernel

end
-- ==== Proof.LibBroadcastRead.lean ====
/-
  Host broadcasts read at coordinates, and sums over small index sets as sums over rows.

  A scalar broadcast to any shape reads the scalar everywhere; an `[a]` vector broadcast along a new unit axis to an
  `[a, 1]` column reads, at `(i, u)`, the vector at `i`; an `[a, 1]` column broadcast to `[a, b]` reads, at `(i, j)`,
  the column at `(i, 0)`. A sum over the indices of an `[n]` vector, or of an `[n, 1]` column, is the sum over its `n` rows.
-/
import Idealize.ShloMosaic.Lib.Pipeline.Value
import Idealize.ShloMosaic.Lib.ValueIdx

namespace Cert.LibBroadcastRead

open Idealize.ShloMosaic Idealize.ShloMosaic.ValueIdx

variable {α : Type}

/-- A rank-0 value broadcast to any shape reads, at every index, the value. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun a => a.elim0

/-- An `[a]` vector broadcast to an `[a, 1]` column along axis 0 reads, at `(i, u)`, the vector at `i`. -/
theorem bcast_column_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An `[a, 1]` column broadcast to `[a, b]` along both axes reads, at `(i, j)`, the column at `(i, 0)`. -/
theorem bcast_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A sum over the indices of an `[n]` vector is the sum over its entries. -/
theorem sum_vector {M : Type*} [AddCommMonoid M] {n : ℕ} (f : (⟨1, ![n]⟩ : Shape).Idx → M) :
    ∑ i, f i = ∑ r : Fin n, f (ix1 r) :=
  Fintype.sum_equiv ⟨fun i => i 0, fun r => ix1 r, fun i => (eq_ix1 i).symm, fun _ => rfl⟩ f (fun r => f (ix1 r))
    fun i => congrArg f (eq_ix1 i)

/-- A sum over the indices of an `[n, 1]` column is the sum over its rows. -/
theorem sum_column {M : Type*} [AddCommMonoid M] {n : ℕ} (f : (⟨2, ![n, 1]⟩ : Shape).Idx → M) :
    ∑ i, f i = ∑ r : Fin n, f (ix2 r (0 : Fin 1)) := by
  rw [sum_idx2]
  exact Finset.sum_congr rfl fun r _ => Fin.sum_univ_one _

end Cert.LibBroadcastRead
-- ==== Proof.KRun.lean ====
/-
  The kernel's program, run: its two results as functions of the arguments.

  After the region the program sums the column of squared excesses on the host, from zero, and divides by the number
  of atoms. The column is one whole-array function (`squares`), its sum over the indices of a one-column array is the
  sum over the atoms, so the scalar result is the penalty. The feature result is the first output array (`features`).
-/
import proofs.«143744_j33887291965648_1_alg».proof.Proof.KBlocks
import proofs.«143744_j33887291965648_1_alg».proof.Proof.LibBroadcastRead
import Idealize.ShloMosaic.Lib.StableHlo.Run

noncomputable section

namespace Cert.Valence.Kernel

open Cert.KernelIdeal Cert.KernelIdeal.Gen Idealize.ShloMosaic Idealize.ShloMosaic.TcCoe Idealize.SL.Sem Idealize.ShloMosaic.StableHlo
open Idealize.ShloMosaic.Pipeline (Dat)
open Idealize.ShloMosaic.ValueIdx Cert.Valence Cert.LibBroadcastRead

/-- The host's sum of a column of squared excesses, from zero, divided by the number of atoms, is the penalty. -/
theorem tail_eq (x : FVec Ideal S500000x1 .f32) (bc mv : SAtoms.Idx → EReal)
    (hx : x = fun i => sqExcess bc mv (i 0 : Fin 500000)) :
    Host.divf (Host.reduceAdd x (constant (F := Ideal) S_ .f32 0x00000000#32) reducesTo_S500000x1_S_d0_1 h_S_)
      (constant (F := Ideal) S_ .f32 0x48F42400#32) = penalty bc mv := by
  subst hx
  funext j
  show Ideal.div (Ideal.hostReduceAdd reducesTo_S500000x1_S_d0_1 (fun i : S500000x1.Idx => sqExcess bc mv (i 0 : Fin 500000))
    (Ideal.ofBits .f32 0x00000000#32) j) (Ideal.ofBits .f32 0x48F42400#32) = _
  rw [Ideal.hostReduceAdd_total reducesTo_S500000x1_S_d0_1 (fun b => b.elim0), sum_column]
  rfl

variable (m : (ℓ : Loc nD τ sig) → Buf (Elt Ideal) ℓ) (ρ : Dev nD → PrngReg)

/-- The scalar result after the host operations that follow the region. -/
theorem tail_penalty (c : Dev nD) :
    Pipeline.afterTail₀ cfgs (dats m) 0 (V0 m) [hostOps1] c main_v29 = penalty (counts m c) (valences m c) := by
  unfold Pipeline.afterTail₀
  show StableHlo.after hostOps1 _ (Proc.devRef .tc main_v29) = _
  after_results
  exact tail_eq _ _ _ ((Pipeline.withArrays_arr spec0 launch0.win.arr_inj c _ _ 4).trans (final_squares m c))

/-- Every weakly fair execution of the kernel's program terminates with the feature result at the damped features, the
    scalar result at the penalty, and the arguments unchanged. -/
theorem run : θ_run defs (onTc (τ := τ) (main (F := Ideal))) ⟨m, fun _ => 0, ρ⟩ fun r => ∀ c : Dev nD,
      r.2.mem ((c.tc : Thread nD τ).loc main_v27_0) = features m c
      ∧ r.2.mem ((c.tc : Thread nD τ).loc main_v29) = penalty (counts m c) (valences m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 3).trans (final_features m c),
      ((h c).2 main_v29 (Pipeline.mem_restRefs_of main_v29 (by decide) (by decide))).trans (tail_penalty m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Valence.Kernel

end
-- ==== Proof.RefRun.lean ====
/-
  The reference program as a straight line of host operations, and its run.

  The reference computes everything on the host: the edges' sources, the bond counts (a scatter of ones), the allowed
  valences (a clip, a table lookup, a selection), the excess, its square summed and divided by the number of atoms, and
  the damped features. Its two outlined functions (the clip and the selection) are listed at their call sites, over the
  buffers of each call. Every weakly fair execution terminates, and each buffer ends at the operations' fold over the
  launch contents.
-/
import proofs.«143744_j33887291965648_1_alg».proof.Proof.Gen.ReferenceIdeal
import Idealize.ShloMosaic.Lib.StableHlo.Run

noncomputable section

namespace Cert.Valence.Reference

open Cert.ReferenceIdeal Cert.ReferenceIdeal.Gen Idealize.ShloMosaic Idealize.ShloMosaic.TcCoe Idealize.SL.Sem Idealize.ShloMosaic.StableHlo

variable {F : FTy → Type} [FloatOps F]

/-- The reference's 62 operations, in order, the two calls unfolded. -/
abbrev ops : List (HloOp τ sig (Elt F)) :=
  [
    nullary main_cst (fun i => FloatOps.ofBits .f32 (lit0 (S11.rowMajor i))),
    unary main_arg1 main_v0 ((extractStridedSlice S1x16000000 ![0, 0] · slices_S2x16000000_S1x16000000_0_0) : (⟨S2x16000000, .i32⟩ : BufTy).Contents (Elt F) → (⟨S1x16000000, .i32⟩ : BufTy).Contents (Elt F)),
    reshape main_v0 main_v1 rfl shapeCasts_S1x16000000_S16000000,
    nullary main_cst_0 (constant S_ .f32 0x00000000#32),
    unary main_cst_0 main_v2 (broadcastInDim S500000 ![] bcast_S_S500000 : (⟨S_, .f32⟩ : BufTy).Contents (Elt F) → (⟨S500000, .f32⟩ : BufTy).Contents (Elt F)),
    nullary main_cst_1 (constant S_ .f32 0x3F800000#32),
    unary main_cst_1 main_v3 (broadcastInDim S16000000 ![] bcast_S_S16000000 : (⟨S_, .f32⟩ : BufTy).Contents (Elt F) → (⟨S16000000, .f32⟩ : BufTy).Contents (Elt F)),
    nullary main_c (constantI S_ 32 0#32),
    unary main_c main_v4 (broadcastInDim S16000000 ![] bcast_S_S16000000 : (⟨S_, .i32⟩ : BufTy).Contents (Elt F) → (⟨S16000000, .i32⟩ : BufTy).Contents (Elt F)),
    binary main_v1 main_v4 main_v5 (cmpi .slt : (⟨S16000000, .i32⟩ : BufTy).Contents (Elt F) → (⟨S16000000, .i32⟩ : BufTy).Contents (Elt F) → (⟨S16000000, .i1⟩ : BufTy).Contents (Elt F)),
    nullary main_c_2 (constantI S_ 32 500000#32),
    unary main_c_2 main_v6 (broadcastInDim S16000000 ![] bcast_S_S16000000 : (⟨S_, .i32⟩ : BufTy).Contents (Elt F) → (⟨S16000000, .i32⟩ : BufTy).Contents (Elt F)),
    binary main_v1 main_v6 main_v7 (addi : (⟨S16000000, .i32⟩ : BufTy).Contents (Elt F) → (⟨S16000000, .i32⟩ : BufTy).Contents (Elt F) → (⟨S16000000, .i32⟩ : BufTy).Contents (Elt F)),
    ternary main_v5 main_v7 main_v1 main_v8 (select : (⟨S16000000, .i1⟩ : BufTy).Contents (Elt F) → (⟨S16000000, .i32⟩ : BufTy).Contents (Elt F) → (⟨S16000000, .i32⟩ : BufTy).Contents (Elt F) → (⟨S16000000, .i32⟩ : BufTy).Contents (Elt F)),
    unary main_v8 main_v9 (broadcastInDim S16000000x1 ![0] bcast_S16000000_S16000000x1_0 : (⟨S16000000, .i32⟩ : BufTy).Contents (Elt F) → (⟨S16000000x1, .i32⟩ : BufTy).Contents (Elt F)),
    ternary main_v2 main_v9 main_v3 main_v10 ((fun x i u => Host.scatterAdd scatter_S500000_S16000000x1_S16000000_n_0_0_1 x i u) : (⟨S500000, .f32⟩ : BufTy).Contents (Elt F) → (⟨S16000000x1, .i32⟩ : BufTy).Contents (Elt F) → (⟨S16000000, .f32⟩ : BufTy).Contents (Elt F) → (⟨S500000, .f32⟩ : BufTy).Contents (Elt F)),
    nullary main_c_3 (constantI S_ 32 0#32),
    unary main_c_3 main_v11 (broadcastInDim S500000 ![] bcast_S_S500000 : (⟨S_, .i32⟩ : BufTy).Contents (Elt F) → (⟨S500000, .i32⟩ : BufTy).Contents (Elt F)),
    binary main_arg3 main_v11 main_v12 (cmpi .sge : (⟨S500000, .i32⟩ : BufTy).Contents (Elt F) → (⟨S500000, .i32⟩ : BufTy).Contents (Elt F) → (⟨S500000, .i1⟩ : BufTy).Contents (Elt F)),
    nullary main_c_4 (constantI S_ 32 11#32),
    unary main_c_4 main_v13 (broadcastInDim S500000 ![] bcast_S_S500000 : (⟨S_, .i32⟩ : BufTy).Contents (Elt F) → (⟨S500000, .i32⟩ : BufTy).Contents (Elt F)),
    binary main_arg3 main_v13 main_v14 (cmpi .slt : (⟨S500000, .i32⟩ : BufTy).Contents (Elt F) → (⟨S500000, .i32⟩ : BufTy).Contents (Elt F) → (⟨S500000, .i1⟩ : BufTy).Contents (Elt F)),
    binary main_v12 main_v14 main_v15 (andi : (⟨S500000, .i1⟩ : BufTy).Contents (Elt F) → (⟨S500000, .i1⟩ : BufTy).Contents (Elt F) → (⟨S500000, .i1⟩ : BufTy).Contents (Elt F)),
    nullary main_c_5 (constantI S_ 32 0#32),
    nullary main_c_6 (constantI S_ 32 10#32),
    TRef.unary (.of main_c_5) main_call0.v0 id,
    TRef.unary main_call0.v0 main_call0.v1 (broadcastInDim S500000 ![] bcast_S_S500000),
    TRef.binary main_call0.v1 (.of main_arg3) main_call0.v2 maxsi,
    TRef.unary (.of main_c_6) main_call0.v3 id,
    TRef.unary main_call0.v3 main_call0.v4 (broadcastInDim S500000 ![] bcast_S_S500000),
    TRef.binary main_call0.v4 main_call0.v2 main_call0.v5 minsi,
    nullary main_c_7 (constantI S_ 32 0#32),
    unary main_c_7 main_v17 (broadcastInDim S500000 ![] bcast_S_S500000 : (⟨S_, .i32⟩ : BufTy).Contents (Elt F) → (⟨S500000, .i32⟩ : BufTy).Contents (Elt F)),
    binary main_v16 main_v17 main_v18 (cmpi .slt : (⟨S500000, .i32⟩ : BufTy).Contents (Elt F) → (⟨S500000, .i32⟩ : BufTy).Contents (Elt F) → (⟨S500000, .i1⟩ : BufTy).Contents (Elt F)),
    nullary main_c_8 (constantI S_ 32 11#32),
    unary main_c_8 main_v19 (broadcastInDim S500000 ![] bcast_S_S500000 : (⟨S_, .i32⟩ : BufTy).Contents (Elt F) → (⟨S500000, .i32⟩ : BufTy).Contents (Elt F)),
    binary main_v16 main_v19 main_v20 (addi : (⟨S500000, .i32⟩ : BufTy).Contents (Elt F) → (⟨S500000, .i32⟩ : BufTy).Contents (Elt F) → (⟨S500000, .i32⟩ : BufTy).Contents (Elt F)),
    ternary main_v18 main_v20 main_v16 main_v21 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v21 main_v22 (broadcastInDim S500000x1 ![0] bcast_S500000_S500000x1_0 : (⟨S500000, .i32⟩ : BufTy).Contents (Elt F) → (⟨S500000x1, .i32⟩ : BufTy).Contents (Elt F)),
    binary main_cst main_v22 main_v23 ((fun x i => Host.gather gather_S11_S500000x1_S500000_n_0_n_n_0_1_1 x i) : (⟨S11, .f32⟩ : BufTy).Contents (Elt F) → (⟨S500000x1, .i32⟩ : BufTy).Contents (Elt F) → (⟨S500000, .f32⟩ : BufTy).Contents (Elt F)),
    nullary main_cst_9 (constant S_ .f32 0x40800000#32),
    TRef.unary (.of main_cst_9) main_call1.v0 id,
    TRef.unary main_call1.v0 main_call1.v1 (broadcastInDim S500000 ![] bcast_S_S500000),
    TRef.ternary (.of main_v15) (.of main_v23) main_call1.v1 main_call1.v2 select,
    binary main_v10 main_v24 main_v25 (subf : (⟨S500000, .f32⟩ : BufTy).Contents (Elt F) → (⟨S500000, .f32⟩ : BufTy).Contents (Elt F) → (⟨S500000, .f32⟩ : BufTy).Contents (Elt F)),
    nullary main_cst_10 (constant S_ .f32 0x00000000#32),
    unary main_cst_10 main_v26 (broadcastInDim S500000 ![] bcast_S_S500000 : (⟨S_, .f32⟩ : BufTy).Contents (Elt F) → (⟨S500000, .f32⟩ : BufTy).Contents (Elt F)),
    binary main_v25 main_v26 main_v27 (maximumf : (⟨S500000, .f32⟩ : BufTy).Contents (Elt F) → (⟨S500000, .f32⟩ : BufTy).Contents (Elt F) → (⟨S500000, .f32⟩ : BufTy).Contents (Elt F)),
    binary main_v27 main_v27 main_v28 (mulf : (⟨S500000, .f32⟩ : BufTy).Contents (Elt F) → (⟨S500000, .f32⟩ : BufTy).Contents (Elt F) → (⟨S500000, .f32⟩ : BufTy).Contents (Elt F)),
    nullary main_cst_11 (constant S_ .f32 0x00000000#32),
    binary main_v28 main_cst_11 main_v29 ((fun x v => Host.reduceAdd x v reducesTo_S500000_S_d0 h_S_) : (⟨S500000, .f32⟩ : BufTy).Contents (Elt F) → (⟨S_, .f32⟩ : BufTy).Contents (Elt F) → (⟨S_, .f32⟩ : BufTy).Contents (Elt F)),
    nullary main_cst_12 (constant S_ .f32 0x48F42400#32),
    binary main_v29 main_cst_12 main_v30 (Host.divf : (⟨S_, .f32⟩ : BufTy).Contents (Elt F) → (⟨S_, .f32⟩ : BufTy).Contents (Elt F) → (⟨S_, .f32⟩ : BufTy).Contents (Elt F)),
    nullary main_cst_13 (constant S_ .f32 0x3DCCCCCD#32),
    unary main_cst_13 main_v31 (broadcastInDim S500000 ![] bcast_S_S500000 : (⟨S_, .f32⟩ : BufTy).Contents (Elt F) → (⟨S500000, .f32⟩ : BufTy).Contents (Elt F)),
    binary main_v31 main_v27 main_v32 (mulf : (⟨S500000, .f32⟩ : BufTy).Contents (Elt F) → (⟨S500000, .f32⟩ : BufTy).Contents (Elt F) → (⟨S500000, .f32⟩ : BufTy).Contents (Elt F)),
    nullary main_cst_14 (constant S_ .f32 0x3F800000#32),
    unary main_cst_14 main_v33 (broadcastInDim S500000 ![] bcast_S_S500000 : (⟨S_, .f32⟩ : BufTy).Contents (Elt F) → (⟨S500000, .f32⟩ : BufTy).Contents (Elt F)),
    binary main_v33 main_v32 main_v34 (subf : (⟨S500000, .f32⟩ : BufTy).Contents (Elt F) → (⟨S500000, .f32⟩ : BufTy).Contents (Elt F) → (⟨S500000, .f32⟩ : BufTy).Contents (Elt F)),
    unary main_v34 main_v35 (broadcastInDim S500000x1 ![0] bcast_S500000_S500000x1_0 : (⟨S500000, .f32⟩ : BufTy).Contents (Elt F) → (⟨S500000x1, .f32⟩ : BufTy).Contents (Elt F)),
    unary main_v35 main_v36 (broadcastInDim S500000x128 ![0, 1] bcast_S500000x1_S500000x128_0_1 : (⟨S500000x1, .f32⟩ : BufTy).Contents (Elt F) → (⟨S500000x128, .f32⟩ : BufTy).Contents (Elt F)),
    binary main_arg0 main_v36 main_v37 (mulf : (⟨S500000x128, .f32⟩ : BufTy).Contents (Elt F) → (⟨S500000x128, .f32⟩ : BufTy).Contents (Elt F) → (⟨S500000x128, .f32⟩ : BufTy).Contents (Elt F)) ]

set_option maxRecDepth 2048 in
/-- The reference is that straight line: the two functions unfolded at their calls, the sequencing re-associated. -/
theorem main_eq (c : Dev nD) : main (F := F) c = seq ops := by
  simp only [main, fn_clip.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., reshape_bufs_sub .., nullary_bufs_sub .., unary_bufs_sub .., nullary_bufs_sub ..,
    unary_bufs_sub .., nullary_bufs_sub .., unary_bufs_sub .., binary_bufs_sub .., nullary_bufs_sub .., unary_bufs_sub ..,
    binary_bufs_sub .., ternary_bufs_sub .., unary_bufs_sub .., ternary_bufs_sub .., nullary_bufs_sub .., unary_bufs_sub ..,
    binary_bufs_sub .., nullary_bufs_sub .., unary_bufs_sub .., binary_bufs_sub .., binary_bufs_sub .., nullary_bufs_sub ..,
    nullary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., binary_bufs_sub .., nullary_bufs_sub .., unary_bufs_sub .., binary_bufs_sub ..,
    binary_bufs_sub .., nullary_bufs_sub .., binary_bufs_sub .., nullary_bufs_sub .., binary_bufs_sub .., nullary_bufs_sub ..,
    unary_bufs_sub .., binary_bufs_sub .., nullary_bufs_sub .., unary_bufs_sub .., binary_bufs_sub .., unary_bufs_sub ..,
    unary_bufs_sub .., binary_bufs_sub ..⟩

/-- From any memory with zero counters every weakly fair execution of the reference terminates, and every buffer ends
    at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.Valence.Reference

end
-- ==== Proof.RefValue.lean ====
/-
  The reference's two results, as functions of its arguments.

  After its straight line the reference's feature result is the features times the broadcast of `1 − 0.1 · excess`, and
  its scalar result the host's sum of the squared excess divided by the number of atoms, both over the bond counts and
  the allowed valences of the host prelude (`val_features`, `val_penalty`). Over the extended reals, index by index,
  these are the damped features and the penalty (`refFeatures_eq`, `refPenalty_eq`): a broadcast reads its operand at the
  row, and the host's sum is the initial value plus the sum over the atoms.
-/
import proofs.«143744_j33887291965648_1_alg».proof.Proof.RefRun
import proofs.«143744_j33887291965648_1_alg».proof.Proof.Spec
import proofs.«143744_j33887291965648_1_alg».proof.Proof.LibBroadcastRead
import Idealize.ShloMosaic.PureOps.Ideal.Laws

noncomputable section

namespace Cert.Valence.Reference

open Cert.ReferenceIdeal Cert.ReferenceIdeal.Gen Idealize.ShloMosaic Idealize.ShloMosaic.TcCoe Idealize.SL.Sem Idealize.ShloMosaic.StableHlo
open Idealize.ShloMosaic.ValueIdx Cert.Valence Cert.LibBroadcastRead

/-- The shape relations of the host prelude, as the reference states them. -/
theorem hostFacts : HostFacts :=
  ⟨slices_S2x16000000_S1x16000000_0_0, shapeCasts_S1x16000000_S16000000, bcast_S_S500000, bcast_S_S16000000,
    bcast_S16000000_S16000000x1_0, bcast_S500000_S500000x1_0, scatter_S500000_S16000000x1_S16000000_n_0_0_1_wf,
    gather_S11_S500000x1_S500000_n_0_n_n_0_1_1_wf⟩

section Terms

variable {F : FTy → Type} [FloatOps F]

/-- The excess as the reference computes it, a vector over the atoms. -/
def refExcess (bc mv : FVec F S500000 .f32) : FVec F S500000 .f32 :=
  maximumf (subf bc mv) (broadcastInDim S500000 ![] bcast_S_S500000 (constant S_ .f32 0x00000000#32))

/-- The reference's feature result from the features, the bond counts and the allowed valences. -/
def refFeatures (h : FVec F S500000x128 .f32) (bc mv : FVec F S500000 .f32) : FVec F S500000x128 .f32 :=
  mulf h (broadcastInDim S500000x128 ![0, 1] bcast_S500000x1_S500000x128_0_1
    (broadcastInDim S500000x1 ![0] bcast_S500000_S500000x1_0
      (subf (broadcastInDim S500000 ![] bcast_S_S500000 (constant S_ .f32 0x3F800000#32))
        (mulf (broadcastInDim S500000 ![] bcast_S_S500000 (constant S_ .f32 0x3DCCCCCD#32)) (refExcess bc mv)))))

/-- The reference's scalar result from the bond counts and the allowed valences. -/
def refPenalty (bc mv : FVec F S500000 .f32) : FVec F S_ .f32 :=
  Host.divf (Host.reduceAdd (mulf (refExcess bc mv) (refExcess bc mv)) (constant S_ .f32 0x00000000#32) reducesTo_S500000_S_d0 h_S_)
    (constant S_ .f32 0x48F42400#32)

-- the scatter and the lookup stay folded: nothing reads inside them
attribute [local irreducible] Host.scatterAdd Host.gather in
/-- The feature result after the straight line. -/
theorem val_features (V : Valuation τ sig (Elt F)) :
    after ops V (main_v37 : DevRef τ sig)
      = refFeatures (V (main_arg0 : DevRef τ sig)) (bondCounts hostFacts (V (main_arg1 : DevRef τ sig)))
          (allowed hostFacts lit0 (V (main_arg3 : DevRef τ sig))) := by
  after_results_simp
  rfl

attribute [local irreducible] Host.scatterAdd Host.gather Host.reduceAdd in
/-- The scalar result after the straight line. -/
theorem val_penalty (V : Valuation τ sig (Elt F)) :
    after ops V (main_v30 : DevRef τ sig)
      = refPenalty (bondCounts hostFacts (V (main_arg1 : DevRef τ sig))) (allowed hostFacts lit0 (V (main_arg3 : DevRef τ sig))) := by
  after_results_simp
  rfl

/-- No operation writes an argument. -/
theorem kept_arg0 (V : Valuation τ sig (Elt F)) : after ops V (main_arg0 : DevRef τ sig) = V (main_arg0 : DevRef τ sig) := by
  after_results_simp
theorem kept_arg1 (V : Valuation τ sig (Elt F)) : after ops V (main_arg1 : DevRef τ sig) = V (main_arg1 : DevRef τ sig) := by
  after_results_simp
theorem kept_arg2 (V : Valuation τ sig (Elt F)) : after ops V (main_arg2 : DevRef τ sig) = V (main_arg2 : DevRef τ sig) := by
  after_results_simp
theorem kept_arg3 (V : Valuation τ sig (Elt F)) : after ops V (main_arg3 : DevRef τ sig) = V (main_arg3 : DevRef τ sig) := by
  after_results_simp

end Terms

/-! ## Over the extended reals -/

/-- The reference's excess at atom `r`. -/
theorem refExcess_apply (bc mv : FVec Ideal S500000 .f32) (r : Fin 500000) :
    refExcess bc mv (ix1 r) = excess (bc (ix1 r)) (mv (ix1 r)) := by
  show max (bc (ix1 r) - mv (ix1 r)) (broadcastInDim S500000 ![] bcast_S_S500000 (constant (F := Ideal) S_ .f32 0x00000000#32) (ix1 r)) = _
  rw [bcast_scalar_apply]
  rfl

/-- The reference's feature result is the damped features. -/
theorem refFeatures_eq (h : FVec Ideal S500000x128 .f32) (bc mv : FVec Ideal S500000 .f32) :
    refFeatures h bc mv = damped h bc mv := by
  funext i
  obtain ⟨p, q, rfl⟩ : ∃ (p : Fin 500000) (q : Fin 128), i = ix2 p q := ⟨i 0, i 1, eq_ix2 i⟩
  unfold refFeatures
  rw [mulf_apply, bcast_rows_apply, bcast_column_apply, subf_apply, mulf_apply, bcast_scalar_apply, bcast_scalar_apply,
    refExcess_apply]
  rfl

/-- The reference's scalar result is the penalty. -/
theorem refPenalty_eq (bc mv : FVec Ideal S500000 .f32) : refPenalty bc mv = penalty bc mv := by
  funext j
  show Ideal.div (Ideal.hostReduceAdd reducesTo_S500000_S_d0 (mulf (refExcess bc mv) (refExcess bc mv)) (Ideal.ofBits .f32 0x00000000#32) j)
    (Ideal.ofBits .f32 0x48F42400#32) = _
  rw [Ideal.hostReduceAdd_total reducesTo_S500000_S_d0 (fun b => b.elim0), sum_vector]
  refine congrArg (fun s => Ideal.div (Ideal.ofBits .f32 0x00000000#32 + s) (Ideal.ofBits .f32 0x48F42400#32))
    (Finset.sum_congr rfl fun r _ => ?_)
  show refExcess bc mv (ix1 r) * refExcess bc mv (ix1 r) = sqExcess bc mv r
  rw [refExcess_apply]
  rfl

end Cert.Valence.Reference

end
-- ==== Proof.lean ====
/-
  The valence penalty: the kernel against its reference, over the extended reals.

  Both programs compute, on the host and by the same operations, each atom's bond count (a sum of ones scattered from
  the edge list) and its allowed valence (a table entry selected by the atom's type). From them the excess
  `max (count − allowed) 0`. The reference then multiplies each feature row by `1 − 0.1 · excess` and divides the sum
  of the squared excesses by the number of atoms. The kernel does the row-wise part on blocks of 10000 atoms — the
  counts and the allowed valences as one-column arrays — writing the damped rows and a column of squared excesses; the
  host sums that column and divides.

  At the extended reals the two feature results are the same function entry by entry, and the two sums run over the
  same 500000 terms, once indexed by a vector and once by a one-column array: no law beyond re-indexing a finite sum
  is needed, and the finiteness of the inputs is never used.
-/
import proofs.«143744_j33887291965648_1_alg».proof.Defs
import proofs.«143744_j33887291965648_1_alg».proof.Proof.Gen.Kernel
import proofs.«143744_j33887291965648_1_alg».proof.Proof.Gen.Kernel.Skeleton
import proofs.«143744_j33887291965648_1_alg».proof.Proof.Gen.Kernel.Launch
import proofs.«143744_j33887291965648_1_alg».proof.Proof.Gen.Kernel.Points
import proofs.«143744_j33887291965648_1_alg».proof.Proof.Gen.Kernel.Frame
import proofs.«143744_j33887291965648_1_alg».proof.Proof.Gen.KernelIdeal
import proofs.«143744_j33887291965648_1_alg».proof.Proof.Gen.KernelIdeal.Skeleton
import proofs.«143744_j33887291965648_1_alg».proof.Proof.Gen.KernelIdeal.Launch
import proofs.«143744_j33887291965648_1_alg».proof.Proof.Gen.KernelIdeal.Points
import proofs.«143744_j33887291965648_1_alg».proof.Proof.Gen.KernelIdeal.Frame
import proofs.«143744_j33887291965648_1_alg».proof.Proof.Gen.ReferenceIdeal
import proofs.«143744_j33887291965648_1_alg».proof.Proof.Gen.Pre_finite_inputs
import proofs.«143744_j33887291965648_1_alg».proof.Proof.KRun
import proofs.«143744_j33887291965648_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.StableHlo
open Cert.Valence

/-- The two programs hold the same table of allowed valences. -/
theorem table_eq : Cert.ReferenceIdeal.lit0 = Cert.KernelIdeal.lit0 := by
  funext i; fin_cases i <;> rfl

theorem frame_kernel : Cert.frame_Kernel := fun m ρ _ => Cert.Kernel.Gen.frame m ρ

theorem frame_kernel_ideal : Cert.frame_KernelIdeal := fun m ρ _ => Cert.KernelIdeal.Gen.frame m ρ

/-- The reference runs and leaves its arguments as launched: its straight line writes none of them. -/
theorem frame_reference : Cert.frame_ReferenceIdeal := fun m ρ _ =>
  (θ_run Cert.ReferenceIdeal.defs _ _).mono (fun _ h c =>
      ⟨(h c Cert.ReferenceIdeal.main_arg0).trans (Reference.kept_arg0 _),
        (h c Cert.ReferenceIdeal.main_arg1).trans (Reference.kept_arg1 _),
        (h c Cert.ReferenceIdeal.main_arg2).trans (Reference.kept_arg2 _),
        (h c Cert.ReferenceIdeal.main_arg3).trans (Reference.kept_arg3 _)⟩)
    (Reference.run (F := Ideal) m ρ)

/-- The ideal pass rewrote nothing: there is nothing to preserve. -/
theorem preserves : Cert.preserves_Kernel_KernelIdeal := trivial

/-- Both programs end with the damped features and the penalty of the same bond counts and allowed valences. -/
theorem algebraic : Cert.algebraic_KernelIdeal_ReferenceIdeal := by
  intro m ρ m' ρ' _ hagree
  refine ⟨fun c => Kernel.features m c, fun c => penalty (Kernel.counts m c) (Kernel.valences m c), Kernel.run m ρ, ?_⟩
  refine (θ_run Cert.ReferenceIdeal.defs _ _).mono (fun _ h c => ?_) (Reference.run (F := Ideal) m' ρ')
  obtain ⟨a0, a1, a2, a3⟩ := hagree c
  have e0 : launchContents m' c (Cert.ReferenceIdeal.main_arg0 : DevRef Cert.ReferenceIdeal.τ Cert.ReferenceIdeal.sig)
      = m ((c.tc : Thread Cert.KernelIdeal.nD Cert.KernelIdeal.τ).loc Cert.KernelIdeal.main_arg0) := a0
  have e1 : launchContents m' c (Cert.ReferenceIdeal.main_arg1 : DevRef Cert.ReferenceIdeal.τ Cert.ReferenceIdeal.sig)
      = m ((c.tc : Thread Cert.KernelIdeal.nD Cert.KernelIdeal.τ).loc Cert.KernelIdeal.main_arg1) := a1
  have e3 : launchContents m' c (Cert.ReferenceIdeal.main_arg3 : DevRef Cert.ReferenceIdeal.τ Cert.ReferenceIdeal.sig)
      = m ((c.tc : Thread Cert.KernelIdeal.nD Cert.KernelIdeal.τ).loc Cert.KernelIdeal.main_arg3) := a3
  refine ⟨?_, ?_, (h c Cert.ReferenceIdeal.main_arg0).trans (Reference.kept_arg0 _),
    (h c Cert.ReferenceIdeal.main_arg1).trans (Reference.kept_arg1 _),
    (h c Cert.ReferenceIdeal.main_arg2).trans (Reference.kept_arg2 _),
    (h c Cert.ReferenceIdeal.main_arg3).trans (Reference.kept_arg3 _)⟩
  · rw [h c Cert.ReferenceIdeal.main_v37, Reference.val_features, Reference.refFeatures_eq, e0, e1, e3, table_eq] <;> rfl
  · rw [h c Cert.ReferenceIdeal.main_v30, Reference.val_penalty, Reference.refPenalty_eq, e1, e3, table_eq] <;> rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
